-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x128x5000 : Shape := ⟨3, ![128, 128, 5000]⟩
abbrev S2560 : Shape := ⟨1, ![2560]⟩
abbrev S_ : Shape := ⟨0, ![]⟩

class Facts : Prop where
  bcast_S_S128x128x5000 : S_.BroadcastsInDim S128x128x5000 (![] : Fin 0 → Fin S128x128x5000.rank)
  reducesTo_S128x128x5000_S_d0_1_2 : S128x128x5000.ReducesTo [0, 1, 2] S_
  h_S_ : 0 < S_.numel

variable [Facts]

def fn {F : FTy → Type} [FloatOps F] (main_arg0 : FVec F S128x128x5000 .f32) (main_arg1 : IVec S2560 32) : IVec S_ 1 :=
  let main_v0 : FVec F S128x128x5000 .f32 := Host.absf main_arg0
  let main_cst : FVec F S_ .f32 := constant S_ .f32 0x7F800000#32
  let main_v1 : FVec F S128x128x5000 .f32 := broadcastInDim S128x128x5000 ![] bcast_S_S128x128x5000 main_cst
  let main_v2 : IVec S128x128x5000 1 := cmpf .olt main_v0 main_v1
  let main_c : IVec S_ 1 := constantI S_ 1 1#1
  let main_v3 : IVec S_ 1 := (fun x v => Host.reduce IntOp.andi x v reducesTo_S128x128x5000_S_d0_1_2 h_S_) main_v2 main_c
  main_v3
-- ==== Kernel.lean ====
abbrev S128x128x5000 : Shape := ⟨3, ![128, 128, 5000]⟩
abbrev S2560 : Shape := ⟨1, ![2560]⟩
abbrev S_ : Shape := ⟨0, ![]⟩
abbrev S25600 : Shape := ⟨1, ![25600]⟩
abbrev S2560x1 : Shape := ⟨2, ![2560, 1]⟩
abbrev S128x200 : Shape := ⟨2, ![128, 200]⟩
abbrev S128x200x25 : Shape := ⟨3, ![128, 200, 25]⟩
abbrev S128x5000 : Shape := ⟨2, ![128, 5000]⟩
abbrev S128x640000 : Shape := ⟨2, ![128, 640000]⟩
abbrev S1x640000 : Shape := ⟨2, ![1, 640000]⟩
abbrev S128x25600 : Shape := ⟨2, ![128, 25600]⟩
abbrev S1x25600 : Shape := ⟨2, ![1, 25600]⟩

abbrev nBuf : Space → Nat
  | .hbm => 22
  | .vmem => 6
  | .smem => 0
  | _ => 0

abbrev bufTy : (tb : Table) → Fin (tcTables nBuf tb) → BufTy
  | .hbm, ⟨0, _⟩ => ⟨S128x128x5000, .f32⟩
  | .hbm, ⟨1, _⟩ => ⟨S2560, .i32⟩
  | .hbm, ⟨2, _⟩ => ⟨S_, .f32⟩
  | .hbm, ⟨3, _⟩ => ⟨S25600, .f32⟩
  | .hbm, ⟨4, _⟩ => ⟨S_, .i32⟩
  | .hbm, ⟨5, _⟩ => ⟨S2560, .i32⟩
  | .hbm, ⟨6, _⟩ => ⟨S2560, .i1⟩
  | .hbm, ⟨7, _⟩ => ⟨S_, .i32⟩
  | .hbm, ⟨8, _⟩ => ⟨S2560, .i32⟩
  | .hbm, ⟨9, _⟩ => ⟨S2560, .i32⟩
  | .hbm, ⟨10, _⟩ => ⟨S2560, .i32⟩
  | .hbm, ⟨11, _⟩ => ⟨S2560x1, .i32⟩
  | .hbm, ⟨12, _⟩ => ⟨S_, .f32⟩
  | .hbm, ⟨13, _⟩ => ⟨S2560, .f32⟩
  | .hbm, ⟨14, _⟩ => ⟨S25600, .f32⟩
  | .hbm, ⟨15, _⟩ => ⟨S128x200, .f32⟩
  | .hbm, ⟨16, _⟩ => ⟨S128x200x25, .f32⟩
  | .hbm, ⟨17, _⟩ => ⟨S128x5000, .f32⟩
  | .hbm, ⟨18, _⟩ => ⟨S128x640000, .f32⟩
  | .hbm, ⟨19, _⟩ => ⟨S1x640000, .f32⟩
  | .hbm, ⟨20, _⟩ => ⟨S128x640000, .f32⟩
  | .hbm, ⟨21, _⟩ => ⟨S128x128x5000, .f32⟩
  | .local _ .vmem, ⟨0, _⟩ => ⟨S128x25600, .f32⟩
  | .local _ .vmem, ⟨1, _⟩ => ⟨S128x25600, .f32⟩
  | .local _ .vmem, ⟨2, _⟩ => ⟨S1x25600, .f32⟩
  | .local _ .vmem, ⟨3, _⟩ => ⟨S1x25600, .f32⟩
  | .local _ .vmem, ⟨4, _⟩ => ⟨S128x25600, .f32⟩
  | .local _ .vmem, ⟨5, _⟩ => ⟨S128x25600, .f32⟩
  | _, _ => ⟨S128x128x5000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x25600 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x25600 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x25600 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S25600 : S_.BroadcastsInDim S25600 (![] : Fin 0 → Fin S25600.rank)
  bcast_S_S2560 : S_.BroadcastsInDim S2560 (![] : Fin 0 → Fin S2560.rank)
  bcast_S2560_S2560x1_0 : S2560.BroadcastsInDim S2560x1 (![0] : Fin 1 → Fin S2560x1.rank)
  shapeCasts_S25600_S128x200 : S25600.ShapeCasts S128x200
  bcast_S128x200_S128x200x25_0_1 : S128x200.BroadcastsInDim S128x200x25 (![0, 1] : Fin 2 → Fin S128x200x25.rank)
  shapeCasts_S128x200x25_S128x5000 : S128x200x25.ShapeCasts S128x5000
  shapeCasts_S128x128x5000_S128x640000 : S128x128x5000.ShapeCasts S128x640000
  shapeCasts_S128x5000_S1x640000 : S128x5000.ShapeCasts S1x640000
  inb_S128x25600_S128x25600_0_0 : ∀ a, (![0, 0] : Fin 2 → Nat) a + S128x25600.size a ≤ S128x25600.size a
  h_S128x25600 : 0 < S128x25600.numel
  shapeCasts_S128x25600_S128x25600 : S128x25600.ShapeCasts S128x25600
  inb_S1x25600_S1x25600_0_0 : ∀ a, (![0, 0] : Fin 2 → Nat) a + S1x25600.size a ≤ S1x25600.size a
  h_S1x25600 : 0 < S1x25600.numel
  shapeCasts_S1x25600_S1x25600 : S1x25600.ShapeCasts S1x25600
  broadcasts_S1x25600_S128x25600 : S1x25600.Broadcasts S128x25600
  shapeCasts_S128x640000_S128x128x5000 : S128x640000.ShapeCasts S128x128x5000
  scatter_S25600_S2560x1_S2560_n_0_0_1_wf : ScatterDims.WF S25600 S2560x1 S2560 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x25600.size a ≤ S128x640000.size a
  hwx0_0 : ∀ i : grid0.Coords, EltTy.bits .f32 = 32 ∨ (Rect.block (s := S128x640000) S128x25600.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x25600.size a ≤ S1x640000.size a
  hwx0_1 : ∀ i : grid0.Coords, EltTy.bits .f32 = 32 ∨ (Rect.block (s := S1x640000) S1x25600.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x25600.size a ≤ S128x640000.size a
  hwx0_2 : ∀ i : grid0.Coords, EltTy.bits .f32 = 32 ∨ (Rect.block (s := S128x640000) S128x25600.size (cc0_transform_2 i) (hinb0_2 i)).WholeWords (EltTy.packing .f32)

variable [Facts₀]

def scatter_S25600_S2560x1_S2560_n_0_0_1 : ScatterDims S25600 S2560x1 S2560 where
  updateWindowDims := []
  insertedWindowDims := [0]
  scatterDimsToOperandDims := [0]
  indexVectorDim := 1
  wf := scatter_S25600_S2560x1_S2560_n_0_0_1_wf

abbrev win0_0 : Pipeline.Window sig grid0 :=
  Pipeline.Window.ofSpec (Memref.whole main_v12) S128x25600.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1x25600.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S128x25600.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where
  halias0_2 : Pipeline.Aliased win0 0 2

variable [Facts]
-- ==== ReferenceIdeal.lean ====
abbrev S128x128x5000 : Shape := ⟨3, ![128, 128, 5000]⟩
abbrev S2560 : Shape := ⟨1, ![2560]⟩
abbrev S_ : Shape := ⟨0, ![]⟩
abbrev S25600 : Shape := ⟨1, ![25600]⟩
abbrev S2560x1 : Shape := ⟨2, ![2560, 1]⟩
abbrev S128x200 : Shape := ⟨2, ![128, 200]⟩
abbrev S128x200x25 : Shape := ⟨3, ![128, 200, 25]⟩
abbrev S128x5000 : Shape := ⟨2, ![128, 5000]⟩
abbrev S1x128x5000 : Shape := ⟨3, ![1, 128, 5000]⟩

abbrev nBuf : Space → Nat
  | .hbm => 21
  | .vmem => 0
  | .smem => 0
  | _ => 0

abbrev bufTy : (tb : Table) → Fin (tcTables nBuf tb) → BufTy
  | .hbm, ⟨0, _⟩ => ⟨S128x128x5000, .f32⟩
  | .hbm, ⟨1, _⟩ => ⟨S2560, .i32⟩
  | .hbm, ⟨2, _⟩ => ⟨S_, .f32⟩
  | .hbm, ⟨3, _⟩ => ⟨S25600, .f32⟩
  | .hbm, ⟨4, _⟩ => ⟨S_, .i32⟩
  | .hbm, ⟨5, _⟩ => ⟨S2560, .i32⟩
  | .hbm, ⟨6, _⟩ => ⟨S2560, .i1⟩
  | .hbm, ⟨7, _⟩ => ⟨S_, .i32⟩
  | .hbm, ⟨8, _⟩ => ⟨S2560, .i32⟩
  | .hbm, ⟨9, _⟩ => ⟨S2560, .i32⟩
  | .hbm, ⟨10, _⟩ => ⟨S2560, .i32⟩
  | .hbm, ⟨11, _⟩ => ⟨S2560x1, .i32⟩
  | .hbm, ⟨12, _⟩ => ⟨S_, .f32⟩
  | .hbm, ⟨13, _⟩ => ⟨S2560, .f32⟩
  | .hbm, ⟨14, _⟩ => ⟨S25600, .f32⟩
  | .hbm, ⟨15, _⟩ => ⟨S128x200, .f32⟩
  | .hbm, ⟨16, _⟩ => ⟨S128x200x25, .f32⟩
  | .hbm, ⟨17, _⟩ => ⟨S128x5000, .f32⟩
  | .hbm, ⟨18, _⟩ => ⟨S1x128x5000, .f32⟩
  | .hbm, ⟨19, _⟩ => ⟨S128x128x5000, .f32⟩
  | .hbm, ⟨20, _⟩ => ⟨S128x128x5000, .f32⟩
  | _, _ => ⟨S128x128x5000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  bcast_S_S25600 : S_.BroadcastsInDim S25600 (![] : Fin 0 → Fin S25600.rank)
  bcast_S_S2560 : S_.BroadcastsInDim S2560 (![] : Fin 0 → Fin S2560.rank)
  bcast_S2560_S2560x1_0 : S2560.BroadcastsInDim S2560x1 (![0] : Fin 1 → Fin S2560x1.rank)
  shapeCasts_S25600_S128x200 : S25600.ShapeCasts S128x200
  bcast_S128x200_S128x200x25_0_1 : S128x200.BroadcastsInDim S128x200x25 (![0, 1] : Fin 2 → Fin S128x200x25.rank)
  shapeCasts_S128x200x25_S128x5000 : S128x200x25.ShapeCasts S128x5000
  bcast_S128x5000_S1x128x5000_1_2 : S128x5000.BroadcastsInDim S1x128x5000 (![1, 2] : Fin 2 → Fin S1x128x5000.rank)
  bcast_S1x128x5000_S128x128x5000_0_1_2 : S1x128x5000.BroadcastsInDim S128x128x5000 (![0, 1, 2] : Fin 3 → Fin S128x128x5000.rank)
  scatter_S25600_S2560x1_S2560_n_0_0_1_wf : ScatterDims.WF S25600 S2560x1 S2560 [] [0] [0] 1

variable [Facts₀]

def scatter_S25600_S2560x1_S2560_n_0_0_1 : ScatterDims S25600 S2560x1 S2560 where
  updateWindowDims := []
  insertedWindowDims := [0]
  scatterDimsToOperandDims := [0]
  indexVectorDim := 1
  wf := scatter_S25600_S2560x1_S2560_n_0_0_1_wf

class Facts : Prop extends Facts₀ where

variable [Facts]
-- ==== Proof.RegionEntry.lean ====
/-
  What the kernel's region finds in its two input arrays.

  Before the region the host builds the channel-by-time mask `M` from the index list (a row of ones with
  zeros scattered at the listed units, each unit repeated over its 25 samples: `hostMask`, kept as one
  term and never opened), merges channel and time in the signal (`x` becomes [128, 640000]) and lays the
  mask out as one row [1, 640000]. So the region's first array is the flattened signal and its second the
  flattened mask — the two operands of `flatProduct`.
-/
import proofs.«137755_j6004364279952_2_alg».proof.Proof.Gen.KernelIdeal.Frame
import Idealize.ShloMosaic.Lib.StableHlo.Run
import Idealize.ShloMosaic.PureOps.Ideal

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

/-- The channel-by-time mask the host computes from the index list: ones, with a zero scattered at every
    listed unit (a negative index first shifted up by the number of units), the 25600 units read as
    128 channels × 200 patches, each patch repeated over its 25 samples, and (patch, sample) merged into time. -/
def hostMask (idx : IVec S2560 32) : FVec Ideal S128x5000 .f32 :=
  shapeCast _ (broadcastInDim S128x200x25 ![0, 1] bcast_S128x200_S128x200x25_0_1 (shapeCast _ (Host.scatter scatter_S25600_S2560x1_S2560_n_0_0_1 (fun _ b => b) (broadcastInDim S25600 ![] bcast_S_S25600 (constant (F := Ideal) S_ .f32 0x3F800000#32)) (broadcastInDim S2560x1 ![0] bcast_S2560_S2560x1_0 (select (cmpi .slt idx (broadcastInDim S2560 ![] bcast_S_S2560 (constantI S_ 32 0#32))) (addi idx (broadcastInDim S2560 ![] bcast_S_S2560 (constantI S_ 32 25600#32))) idx)) (broadcastInDim S2560 ![] bcast_S_S2560 (constant (F := Ideal) S_ .f32 0x00000000#32))) shapeCasts_S25600_S128x200)) shapeCasts_S128x200x25_S128x5000

/-- The region's first array is the signal with channel and time merged. -/
theorem entry_signal (c : Dev nD) :
    (V m c main_v12 : S128x640000.Idx → EReal)
      = shapeCast S128x640000 (m ((c.tc : Thread nD τ).loc main_arg0)) shapeCasts_S128x128x5000_S128x640000 := by
  show StableHlo.after hostOps0 (fun b => m (c, b)) (Proc.devRef .tc main_v12) = _
  after_results
  rfl

/-- The region's second array is the host mask laid out as one row. -/
theorem entry_mask (c : Dev nD) :
    (V m c main_v13 : S1x640000.Idx → EReal)
      = shapeCast S1x640000 (hostMask (m ((c.tc : Thread nD τ).loc main_arg1))) shapeCasts_S128x5000_S1x640000 := by
  show StableHlo.after hostOps0 (fun b => m (c, b)) (Proc.devRef .tc main_v13) = _
  after_results
  rfl

end Cert.KernelIdeal.Hand

end
-- ==== Proof.MaskedProduct.lean ====
/-
  The function both programs compute, and the one fact about layouts that joins their two arrangements.

  A signal `x[b, c, t]` (batch, channel, time: 128 × 128 × 5000) is multiplied by a mask `M[c, t]` that does
  not depend on the batch: `out[b, c, t] = x[b, c, t] · M[c, t]` (`maskedProduct`). One program does this on
  the arrays as they are. The other first merges channel and time into one axis of length 128 · 5000 =
  640000 — `x` becomes a [128, 640000] array, `M` a single row [1, 640000] —, multiplies every row of the
  flattened `x` by that one row (`flatProduct`), and splits the merged axis again. Merging and splitting keep
  the row-major position, and (channel c, time t) sits at position `c · 5000 + t` of the merged axis in both
  arrays, so the flat product of the flattenings, split again, is the masked product
  (`unflatten_flatProduct`). Nothing is rearranged inside a product: the statement holds for all extended
  reals, infinite ones included.
-/
import Idealize.ShloMosaic.PureOps.Ideal
import Idealize.ShloMosaic.Lib.ValueIdx
import Idealize.ShloMosaic.Lib.Pipeline.Value

noncomputable section

namespace Cert.MaskedProduct

open Idealize.ShloMosaic Idealize.ShloMosaic.ValueIdx

/-- batch × channel × time -/
abbrev Sbct : Shape := ⟨3, ![128, 128, 5000]⟩
/-- channel × time -/
abbrev Sct : Shape := ⟨2, ![128, 5000]⟩
/-- batch × (channel, time merged) -/
abbrev Sbn : Shape := ⟨2, ![128, 640000]⟩
/-- one row × (channel, time merged) -/
abbrev S1n : Shape := ⟨2, ![1, 640000]⟩

/-- Where (channel `c`, time `t`) sits on the merged axis. -/
abbrev merged (c : Fin 128) (t : Fin 5000) : Fin 640000 :=
  ⟨c.val * 5000 + t.val, by have := c.isLt; have := t.isLt; omega⟩

/-- Every sample times the mask entry of its channel and time: `x[b, c, t] · M[c, t]`. -/
def maskedProduct (x : FVec Ideal Sbct .f32) (M : FVec Ideal Sct .f32) : FVec Ideal Sbct .f32 :=
  fun i => x i * M (ix2 (⟨(i 1).val, (i 1).isLt⟩ : Fin 128) (⟨(i 2).val, (i 2).isLt⟩ : Fin 5000))

/-- The same product on flattened arrays: row `b`, position `n` is `xf[b, n] · Mf[0, n]`. -/
def flatProduct (xf : FVec Ideal Sbn .f32) (Mf : FVec Ideal S1n .f32) : FVec Ideal Sbn .f32 :=
  fun j => xf j * Mf (ix2 (0 : Fin 1) (⟨(j 1).val, (j 1).isLt⟩ : Fin 640000))

theorem maskedProduct_apply (x : FVec Ideal Sbct .f32) (M : FVec Ideal Sct .f32) (b c : Fin 128) (t : Fin 5000) :
    maskedProduct x M (ix3 b c t) = x (ix3 b c t) * M (ix2 c t) := rfl

theorem flatProduct_apply (xf : FVec Ideal Sbn .f32) (Mf : FVec Ideal S1n .f32) (b : Fin 128) (n : Fin 640000) :
    flatProduct xf Mf (ix2 b n) = xf (ix2 b n) * Mf (ix2 (0 : Fin 1) n) := rfl

/-- Flatten both arrays, take the flat product, split the merged axis again: the masked product. Entry
    (b, c, t) of the split array is entry (b, c · 5000 + t) of the flat one (both at row-major position
    (b · 128 + c) · 5000 + t), which multiplies `x[b, c, t]` — the flattened `x` there — by `M[c, t]` — the
    flattened mask at position c · 5000 + t of its one row. -/
theorem unflatten_flatProduct (x : FVec Ideal Sbct .f32) (M : FVec Ideal Sct .f32)
    (h1 : Sbct.ShapeCasts Sbn) (h2 : Sct.ShapeCasts S1n) (h3 : Sbn.ShapeCasts Sbct) :
    shapeCast Sbct (flatProduct (shapeCast Sbn x h1) (shapeCast S1n M h2)) h3 = maskedProduct x M := by
  funext i
  obtain ⟨b, c, t, rfl⟩ : ∃ (b : Fin 128) (c : Fin 128) (t : Fin 5000), i = ix3 b c t := ⟨i 0, i 1, i 2, eq_ix3 i⟩
  have hb : b.val < 128 := b.isLt
  have hc : c.val < 128 := c.isLt
  have ht : t.val < 5000 := t.isLt
  rw [shapeCast_apply _ h3 (ix3 b c t) (ix2 b (merged c t)) (by
    rewrite [Shape.rowMajor_val_two, Shape.rowMajor_val_three]
    show b.val * 640000 + (c.val * 5000 + t.val) = (b.val * 128 + c.val) * 5000 + t.val
    omega)]
  rw [flatProduct_apply, maskedProduct_apply]
  rw [shapeCast_apply x h1 (ix2 b (merged c t)) (ix3 b c t) (by
    rewrite [Shape.rowMajor_val_three, Shape.rowMajor_val_two]
    show (b.val * 128 + c.val) * 5000 + t.val = b.val * 640000 + (c.val * 5000 + t.val)
    omega)]
  rw [shapeCast_apply M h2 (ix2 (0 : Fin 1) (merged c t)) (ix2 c t) (by
    rewrite [Shape.rowMajor_val_two, Shape.rowMajor_val_two]
    show c.val * 5000 + t.val = 0 * 640000 + (c.val * 5000 + t.val)
    omega)]

end Cert.MaskedProduct

end
-- ==== Proof.Blocks.lean ====
/-
  From the 25 column blocks to the whole flattened array.

  The grid has 25 points. Point `t` is handed columns `25600·t … 25600·t + 25599` of the flattened signal
  (all 128 rows) and the same columns of the one-row mask, multiplies each of the 128 rows by that piece of
  the row, and writes the 128 × 25600 result back to the same columns of the output. So what point `t`
  writes back is block `t` of `flatProduct` of the two arrays as the region found them (`written_back`),
  the 25 blocks tile the 640000 columns (column `n` lies in block `n / 25600`), and after the last point
  the output array is that flat product (`flat_result`).
-/
import proofs.«137755_j6004364279952_2_alg».proof.Proof.Gen.KernelIdeal.Frame
import proofs.«137755_j6004364279952_2_alg».proof.Proof.MaskedProduct
import Idealize.ShloMosaic.Lib.Pipeline.Value
import Idealize.ShloMosaic.Lib.ValueIdx
import Idealize.ShloMosaic.PureOps.Ideal

noncomputable section

namespace Cert.KernelIdeal.Hand

open Cert.KernelIdeal Cert.KernelIdeal.Gen Cert.MaskedProduct
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

theorem zero_offsets : (![0, 0] : Fin 2 → Nat) = fun _ => 0 := funext fun a => by fin_cases a <;> rfl

/-- The body's product at row `r`, column `q` of a block: the signal block there times the mask piece at
    column `q` of its one row (the broadcast of a one-row block repeats the row). -/
theorem body_product (x0 : Vec Ideal S128x25600 .f32) (x1 : Vec Ideal S1x25600 .f32) (r : Fin 128) (q : Fin 25600) :
    k0_pay1 x0 x1 (ix2 r q) = x0 (ix2 r q) * x1 (ix2 (0 : Fin 1) q) := by
  unfold k0_pay1
  show mulf (F := Ideal) (φ := .f32) (shapeCast S128x25600 x0 shapeCasts_S128x25600_S128x25600)
      (broadcastTo S128x25600 (shapeCast S1x25600 x1 shapeCasts_S1x25600_S1x25600) broadcasts_S1x25600_S128x25600) (ix2 r q) = _
  rw [mulf_apply, shapeCast_self, shapeCast_self,
    broadcastTo_apply x1 broadcasts_S1x25600_S128x25600 (ix2 r q) (ix2 (0 : Fin 1) q) (fun a => match a with
      | ⟨0, _⟩ => by show (0 : Nat) = if (1 : Nat) = 1 then 0 else _; rw [if_pos rfl]
      | ⟨1, _⟩ => by show q.val = if (25600 : Nat) = 1 then 0 else q.val; rw [if_neg (by decide)])]

/-- There are 25 grid points. -/
theorem point_lt (t : Fin cfg0.N) : t.val < 25 := lt_of_lt_of_eq t.isLt N_0

/-- Column `q` of point `t`'s block is column `25600·t + q` of the array. -/
abbrev col (t : Fin cfg0.N) (q : Fin 25600) : Fin 640000 :=
  ⟨t.val * 25600 + q.val, by have := point_lt t; have := q.isLt; omega⟩

/-- The three index maps, decided over the 25 points: every window's block at point `t` is block (0, t). -/
theorem block_indices : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- Point `t`'s signal block is columns `25600·t …` of the flattened signal. -/
theorem signal_block (c : Dev nD) (t : Fin cfg0.N) (r : Fin 128) (q : Fin 25600) :
    (iblk m c 0 t : Vec Ideal S128x25600 .f32) (ix2 r q) = (V m c main_v12 : S128x640000.Idx → EReal) (ix2 r (col t q)) := by
  obtain ⟨e0, e1, -, -, -, -⟩ := block_indices t
  unfold iblk
  rw [View.read_apply]
  show V m c main_v12 _ = V m c main_v12 _
  congr 1
  funext a
  apply Fin.ext
  match a with
  | ⟨0, _⟩ => show win0_0.index t (0 : Fin 2) * 128 + 1 * r.val = r.val; omega
  | ⟨1, _⟩ => show win0_0.index t (1 : Fin 2) * 25600 + 1 * q.val = t.val * 25600 + q.val; omega

/-- Point `t`'s mask piece is the same columns of the one-row mask. -/
theorem mask_block (c : Dev nD) (t : Fin cfg0.N) (q : Fin 25600) :
    (iblk m c 1 t : Vec Ideal S1x25600 .f32) (ix2 (0 : Fin 1) q) = (V m c main_v13 : S1x640000.Idx → EReal) (ix2 (0 : Fin 1) (col t q)) := by
  obtain ⟨-, -, e0, e1, -, -⟩ := block_indices t
  unfold iblk
  rw [View.read_apply]
  show V m c main_v13 _ = V m c main_v13 _
  congr 1
  funext a
  apply Fin.ext
  match a with
  | ⟨0, _⟩ => show win0_1.index t (0 : Fin 2) * 1 + 1 * 0 = 0; omega
  | ⟨1, _⟩ => show win0_1.index t (1 : Fin 2) * 25600 + 1 * q.val = t.val * 25600 + q.val; omega

/-- Entry (r, q) of point `t`'s output block is entry (r, 25600·t + q) of the output array. -/
theorem out_block_entry (t : Fin cfg0.N) (r : Fin 128) (q : Fin 25600) :
    ((cfg0.win 2).blk t).view.emb (ix2 r q) = (ix2 r (col t q) : S128x640000.Idx) := by
  obtain ⟨-, -, -, -, e0, e1⟩ := block_indices t
  funext a
  apply Fin.ext
  match a with
  | ⟨0, _⟩ => show win0_2.index t (0 : Fin 2) * 128 + 1 * r.val = r.val; omega
  | ⟨1, _⟩ => show win0_2.index t (1 : Fin 2) * 25600 + 1 * q.val = t.val * 25600 + q.val; omega

/-- WHAT POINT `t` WRITES BACK is block `t` of the flat product of the two arrays the region found. -/
theorem written_back (c : Dev nD) (t : Fin cfg0.N) :
    (dats m 0 c).flushed 2 t
      = ((cfg0.win 2).blk t).view.read (Elt Ideal) (flatProduct (V m c main_v12) (V m c main_v13)) := by
  show (cfg0.win 2).cut (grid0.coords t) ((dats m 0 c).after 2 t) = _
  rw [after0_2]
  unfold out0_2
  rw [View.canon_unit_zero zero_offsets]
  simp only [View.ld_unit_zero (S := S128x25600) zero_offsets, View.ld_unit_zero (S := S1x25600) zero_offsets]
  funext j
  show k0_pay1 (iblk m c 0 t) (iblk m c 1 t) j
    = flatProduct (V m c main_v12) (V m c main_v13) (((cfg0.win 2).blk t).view.emb j)
  obtain ⟨r, q, rfl⟩ : ∃ (r : Fin 128) (q : Fin 25600), j = ix2 r q := ⟨j 0, j 1, eq_ix2 j⟩
  refine (body_product (iblk m c 0 t) (iblk m c 1 t) r q).trans ?_
  rw [signal_block m c t r q, mask_block m c t q, out_block_entry t r q, flatProduct_apply]

/-- An index of the output array is in point `t`'s block iff each coordinate is in the block's range. -/
theorem mem_block (t : Fin cfg0.N) (i : S128x640000.Idx) :
    i ∈ ((cfg0.win 2).blk t).view.set ↔ ∀ a : Fin 2, win0_2.index t a * S128x25600.size a ≤ (i a).val ∧ (i a).val < win0_2.index t a * S128x25600.size a + S128x25600.size a := by
  show i ∈ ((View.whole main_v14).slice (win0_2.rect t)).set ↔ _
  rw [View.set_slice_whole, Rect.mem_set_unit]
  exact Iff.rfl

/-- The 25 blocks tile the array: column `n` lies in the block of point `n / 25600`. -/
theorem blocks_cover (i : S128x640000.Idx) :
    ∃ t : Fin cfg0.N, (cfg0.win 2).flush t = true ∧ i ∈ ((cfg0.win 2).blk t).view.set := by
  have hi0 : (i 0).val < 128 := (i 0).isLt
  have hi1 : (i 1).val < 640000 := (i 1).isLt
  have hN : cfg0.N = 25 := N_0
  let t : Fin cfg0.N := ⟨(i 1).val / 25600, by rw [hN]; omega⟩
  obtain ⟨-, -, -, -, e0, e1⟩ := block_indices t
  have ht : t.val = (i 1).val / 25600 := rfl
  refine ⟨t, flush0_2 t, ?_⟩
  rw [mem_block]
  intro a
  match a with
  | ⟨0, _⟩ => show win0_2.index t (0 : Fin 2) * 128 ≤ (i 0).val ∧ (i 0).val < win0_2.index t (0 : Fin 2) * 128 + 128; omega
  | ⟨1, _⟩ => show win0_2.index t (1 : Fin 2) * 25600 ≤ (i 1).val ∧ (i 1).val < win0_2.index t (1 : Fin 2) * 25600 + 25600; omega

/-- THE OUTPUT ARRAY after the last point: the flat product of the two arrays the region found. -/
theorem flat_result (c : Dev nD) :
    (dats m 0 c).arrAt 2 cfg0.N = flatProduct (V m c main_v12) (V m c main_v13) :=
  (dats m 0 c).arrAt_eq_of_cover 2 (flatProduct (V m c main_v12) (V m c main_v13))
    (fun t _ => written_back m c t) blocks_cover

end Cert.KernelIdeal.Hand

end
-- ==== Proof.KernelValue.lean ====
/-
  The kernel's result as a function of its two arguments.

  After the region the host splits the merged axis of the output array again. The region left the flat
  product of the flattened signal and the one-row mask there (`flat_result`; both arrays are what the host
  prepared: `entry_signal`, `entry_mask`), and the flat product of the flattenings, split again, is the
  masked product (`unflatten_flatProduct`). So every run of the kernel ends with its result at
  `x[b, c, t] · M[c, t]`, `M` the mask its host computed from the index list, and with both arguments as
  they were.
-/
import proofs.«137755_j6004364279952_2_alg».proof.Proof.RegionEntry
import proofs.«137755_j6004364279952_2_alg».proof.Proof.Blocks

noncomputable section

namespace Cert.KernelIdeal.Hand

open Cert.KernelIdeal Cert.KernelIdeal.Gen Cert.MaskedProduct
open Idealize.ShloMosaic Idealize.ShloMosaic.TcCoe Idealize.SL.Sem Idealize.ShloMosaic.StableHlo

variable (m : (ℓ : Loc nD τ sig) → Buf (Elt Ideal) ℓ) (ρ : Dev nD → PrngReg)

/-- The one host operation after the region splits the merged axis of the region's output array. -/
theorem tail_result (c : Dev nD) :
    (Pipeline.afterTail₀ cfgs (dats m) 0 (V0 m) [hostOps1] c main_v15 : S128x128x5000.Idx → EReal)
      = shapeCast S128x128x5000 ((dats m 0 c).arrAt 2 cfg0.N) shapeCasts_S128x640000_S128x128x5000 := by
  unfold Pipeline.afterTail₀
  show StableHlo.after hostOps1 _ (Proc.devRef .tc main_v15) = _
  after_results
  rw [Pipeline.withArrays_arr spec0 launch0.win.arr_inj c _ _ 2]
  rfl

/-- The kernel's result is the masked product of the signal and the host's mask. -/
theorem kernel_result (c : Dev nD) :
    (Pipeline.afterTail₀ cfgs (dats m) 0 (V0 m) [hostOps1] c main_v15 : S128x128x5000.Idx → EReal)
      = maskedProduct (m ((c.tc : Thread nD τ).loc main_arg0)) (hostMask (m ((c.tc : Thread nD τ).loc main_arg1))) := by
  rw [tail_result m c, flat_result m c, entry_signal m c, entry_mask m c]
  exact unflatten_flatProduct _ _ _ _ _

/-- Every weakly fair run of the kernel terminates with its result at the masked product and its arguments
    unchanged. -/
theorem run : θ_run defs (onTc (τ := τ) (main (F := Ideal))) ⟨m, fun _ => 0, ρ⟩ fun r => ∀ c : Dev nD,
      r.2.mem ((c.tc : Thread nD τ).loc main_v15)
        = maskedProduct (m ((c.tc : Thread nD τ).loc main_arg0)) (hostMask (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v15 (Pipeline.mem_restRefs_of main_v15 (by decide) (by decide))).trans (kernel_result m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Hand

end
-- ==== Proof.ReferenceValue.lean ====
/-
  The reference computes the masked product.

  Its last three operations broadcast the [128, 5000] mask to [1, 128, 5000], then over the batch axis to
  [128, 128, 5000], and multiply `x` by the result entry by entry. A broadcast reads its operand at the
  coordinates it keeps, so entry (b, c, t) of the product is `x[b, c, t]` times the mask's entry (c, t):
  `maskedProduct` of `x` and the mask the reference built (its operations up to the second reshape, which
  this file never opens).
-/
import proofs.«137755_j6004364279952_2_alg».proof.Proof.Gen.ReferenceIdeal.Read
import proofs.«137755_j6004364279952_2_alg».proof.Proof.MaskedProduct

noncomputable section

namespace Cert.ReferenceIdeal.RefValue

open Cert.ReferenceIdeal Cert.ReferenceIdeal.Gen Cert.ReferenceIdeal.Read
open Idealize.ShloMosaic Idealize.ShloMosaic.ValueIdx Cert.MaskedProduct

/-- The reference's result, as a function of its two arguments, is `x[b, c, t] · M[c, t]` with `M` the
    channel-by-time mask it computed from the index list. -/
theorem result_eq (x : (⟨S128x128x5000, .f32⟩ : BufTy).Contents (Elt Ideal)) (idx : (⟨S2560, .i32⟩ : BufTy).Contents (Elt Ideal)) :
    val_main_v14 (F := Ideal) x idx = maskedProduct x (val_main_v11 (F := Ideal) idx) := by
  funext i
  have e : idx_main_v12 (idx_main_v13 i) = ix2 (⟨(i 1).val, (i 1).isLt⟩ : Fin 128) (⟨(i 2).val, (i 2).isLt⟩ : Fin 5000) :=
    funext fun a => Fin.ext (by match a with | ⟨0, _⟩ => rfl | ⟨1, _⟩ => rfl)
  rw [val_main_v14_apply, val_main_v13_apply, val_main_v12_apply, e]
  rfl

end Cert.ReferenceIdeal.RefValue

end
-- ==== Proof.SameMask.lean ====
/-
  The two programs build one and the same mask.

  Both hosts compute the channel-by-time mask by the same operations on the same index list, literal for
  literal: a row of 25600 ones; every index below zero shifted up by 25600; a zero scattered at each listed
  unit; the row read as 128 channels × 200 patches; each patch repeated over its 25 samples; (patch, sample)
  merged into 5000 time steps. The two printed terms differ only in which program's shape facts they cite,
  so they are one term and the equation holds by reflexivity — the scatter is never evaluated.
-/
import proofs.«137755_j6004364279952_2_alg».proof.Proof.RegionEntry
import proofs.«137755_j6004364279952_2_alg».proof.Proof.Gen.ReferenceIdeal.Read

noncomputable section

namespace Cert.Proof.SameMask

open Idealize.ShloMosaic

/-- The kernel's host mask is the reference's mask stage, for every index list. -/
theorem hostMask_eq (idx : IVec (⟨1, ![2560]⟩ : Shape) 32) :
    Cert.KernelIdeal.Hand.hostMask idx = Cert.ReferenceIdeal.Read.val_main_v11 (F := Ideal) idx := rfl

end Cert.Proof.SameMask

end
-- ==== Proof.lean ====
/-
  A signal `x[b, c, t]` (128 × 128 × 5000, finite) is multiplied by a patch mask `M[c, t]` built from a list
  of 2560 unit indices: `M` is one everywhere except on the 25 samples of each listed (channel, patch)
  unit, where it is zero. Both programs build `M` on the host by the same operations (Proof/SameMask.lean).

  The reference multiplies `x` by `M` broadcast over the batch: `out[b, c, t] = x[b, c, t] · M[c, t]`
  (Proof/ReferenceValue.lean). The kernel merges channel and time into one axis of 640000 positions, cuts it
  into 25 blocks of 25600 columns, multiplies in each block the 128 rows of `x` by the matching piece of the
  one-row mask, and splits the axis again. Each grid point writes its own block of the flat product, the
  blocks tile the array (Proof/Blocks.lean), the arrays the region starts from are the flattened `x` and
  `M` (Proof/RegionEntry.lean), and the flat product of the flattenings, split again, is the same
  `x[b, c, t] · M[c, t]` (Proof/MaskedProduct.lean, Proof/KernelValue.lean). No factor is moved or
  regrouped, so the equality holds for every extended real and the finiteness of `x` is not used.

  The three frames: the kernel's, at both instances, is its generated frame; the reference's is its
  generated run with the result dropped. The idealization rewrote no operation, so there is nothing to
  preserve.
-/
import proofs.«137755_j6004364279952_2_alg».proof.Defs
import proofs.«137755_j6004364279952_2_alg».proof.Proof.Gen.Kernel
import proofs.«137755_j6004364279952_2_alg».proof.Proof.Gen.Kernel.Skeleton
import proofs.«137755_j6004364279952_2_alg».proof.Proof.Gen.Kernel.Launch
import proofs.«137755_j6004364279952_2_alg».proof.Proof.Gen.Kernel.Points
import proofs.«137755_j6004364279952_2_alg».proof.Proof.Gen.Kernel.Frame
import proofs.«137755_j6004364279952_2_alg».proof.Proof.Gen.KernelIdeal
import proofs.«137755_j6004364279952_2_alg».proof.Proof.Gen.KernelIdeal.Skeleton
import proofs.«137755_j6004364279952_2_alg».proof.Proof.Gen.KernelIdeal.Launch
import proofs.«137755_j6004364279952_2_alg».proof.Proof.Gen.KernelIdeal.Points
import proofs.«137755_j6004364279952_2_alg».proof.Proof.Gen.KernelIdeal.Frame
import proofs.«137755_j6004364279952_2_alg».proof.Proof.Gen.ReferenceIdeal
import proofs.«137755_j6004364279952_2_alg».proof.Proof.Gen.Pre_finite_inputs
import proofs.«137755_j6004364279952_2_alg».proof.Proof.Gen.ReferenceIdeal.Run
import proofs.«137755_j6004364279952_2_alg».proof.Proof.Gen.ReferenceIdeal.Read
import proofs.«137755_j6004364279952_2_alg».proof.Proof.KernelValue
import proofs.«137755_j6004364279952_2_alg».proof.Proof.ReferenceValue
import proofs.«137755_j6004364279952_2_alg».proof.Proof.SameMask
import Idealize.ShloMosaic.Adequacy
import Idealize.ShloMosaic.Init

noncomputable section

namespace Cert.Proof

open Idealize.ShloMosaic Idealize.SL.Sem

/-- The kernel as printed runs to the end and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on `x` and on the index list both programs end with `x[b, c, t] · M[c, t]`:
    the kernel by `Hand.run`, the reference by its generated run, read as the masked product
    (`RefValue.result_eq`) of the same `x` and the same mask (`SameMask.hostMask_eq`). -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.result_eq, (hagree c).1, (hagree c).2,
    ← Cert.Proof.SameMask.hostMask_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
